-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S1x1024x3 : Shape := ⟨3, ![1, 1024, 3]⟩
abbrev S1x2048x3 : Shape := ⟨3, ![1, 2048, 3]⟩
abbrev S1x1024x1 : Shape := ⟨3, ![1, 1024, 1]⟩
abbrev S1024x1 : Shape := ⟨2, ![1024, 1]⟩
abbrev S1024x3 : Shape := ⟨2, ![1024, 3]⟩
abbrev S2048x3 : Shape := ⟨2, ![2048, 3]⟩
abbrev S1024 : Shape := ⟨1, ![1024]⟩
abbrev S2048 : Shape := ⟨1, ![2048]⟩
abbrev S1024x2048 : Shape := ⟨2, ![1024, 2048]⟩
abbrev S1x2048 : Shape := ⟨2, ![1, 2048]⟩
abbrev S4x8192 : Shape := ⟨2, ![4, 8192]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S1024x3_S1024 : S1024x3.Reduces [1] S1024
  shapeCasts_S1024_S1024x1 : S1024.ShapeCasts S1024x1
  reduces_S2048x3_S2048 : S2048x3.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S4x8192x1_S4x8192 : S4x8192x1.ShapeCasts S4x8192
  reducesTo_S4x8192_S_d0_1 : S4x8192.ReducesTo [0, 1] S_
  h_S_ : 0 < S_.numel
  dot_S1024x3_S2048x3_S1024x2048_1_1_0_0_n_n_wf : DotDims.WF S1024x3 S2048x3 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x8192x3.size a
  hwx0_1 : ∀ i : grid0.Coords, EltTy.bits .f32 = 32 ∨ (Rect.block (s := S4x8192x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)

variable [Facts₀]

def dot_S1024x3_S2048x3_S1024x2048_1_1_0_0_n_n : DotDims S1024x3 S2048x3 S1024x2048 where
  lhsContracting := [1]
  rhsContracting := [1]
  lhsNonContracting := [0]
  rhsNonContracting := [0]
  lhsBatch := []
  rhsBatch := []
  wf := dot_S1024x3_S2048x3_S1024x2048_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the nearest-colour loss, free of any program.

  Two clouds of 8192 points in three coordinates, four batches each: `x b p k` and `y b q k`.  The squared distance
  is expanded as `|x_p|² + |y_q|² - 2·⟨x_p, y_q⟩`; each point `p` of the first cloud takes the least squared
  distance to the second cloud, that minimum is clamped at zero and its square root taken; the loss is the mean of
  the 4·8192 roots.

  The one law the two programs differ by: the clamp followed by the square root is MONOTONE on the extended reals,
  so it commutes with a minimum over a finite family — `√(max (min_q d_q) 0) = min_q √(max d_q 0)`.  The second
  fact is about the order in which a minimum is taken: a minimum over 8192 indices taken as a running minimum over
  four consecutive stretches of 2048 is the minimum over all of them; it is stated through the universal property
  of a greatest lower bound (`c ≤ m ↔ c ≤ every member`), which never mentions an order of evaluation.
-/
import Idealize.ShloMosaic.PureOps.Ideal.Laws
import Idealize.ShloMosaic.Lib.ValueIdx

noncomputable section

namespace Cert.NearestColor

open Idealize.ShloMosaic Idealize.ShloMosaic.ValueIdx

/-- A batch of point clouds: 4 batches, 8192 points, 3 coordinates. -/
abbrev Cloud : Type := (⟨3, ![4, 8192, 3]⟩ : Shape).Idx → EReal

/-- `|x_p|²`: the sum of the squares of the three coordinates of point `p` of batch `b`. -/
def sqNorm (x : Cloud) (b : Fin 4) (p : Fin 8192) : EReal := ∑ k : Fin 3, x (ix3 b p k) * x (ix3 b p k)

/-- `⟨x_p, y_q⟩`: the inner product of point `p` of `x` and point `q` of `y`, in batch `b`. -/
def inner (x y : Cloud) (b : Fin 4) (p q : Fin 8192) : EReal := ∑ k : Fin 3, x (ix3 b p k) * y (ix3 b q k)

/-- The factor 2, as the binary32 word both programs carry. -/
def two : EReal := Ideal.ofBits .f32 0x40000000#32

/-- The expanded squared distance `|x_p|² + |y_q|² - 2⟨x_p, y_q⟩`. -/
def sqDist (x y : Cloud) (b : Fin 4) (p q : Fin 8192) : EReal :=
  (sqNorm x b p + sqNorm y b q) - two * inner x y b p q

/-- Clamp at zero (the binary32 zero word), then the square root. -/
def clampSqrt (v : EReal) : EReal := Ideal.sqrt (max v (Ideal.ofBits .f32 0x00000000#32))

/-- The least squared distance from point `p` of `x` to the cloud `y`. -/
def nearestSq (x y : Cloud) (b : Fin 4) (p : Fin 8192) : EReal :=
  (Finset.univ : Finset (Fin 8192)).fold min ⊤ (fun q => sqDist x y b p q)

/-- The distance from point `p` of `x` to its nearest neighbour in `y`. -/
def nearest (x y : Cloud) (b : Fin 4) (p : Fin 8192) : EReal := clampSqrt (nearestSq x y b p)

/-! ## The binary32 words that occur -/

theorem inf_f32 : Ideal.ofBits .f32 0x7F800000#32 = ⊤ := by simp [Ideal.ofBits, Ideal.ieee]

/-! ## The square root is monotone -/

theorem sqrt_mono : Monotone Ideal.sqrt := by
  intro u v h
  induction u using EReal.rec with
  | bot => simp
  | top => rw [top_le_iff.mp h]
  | coe a =>
    induction v using EReal.rec with
    | bot => exact absurd h (by simp)
    | top => simp
    | coe b =>
      have hab : a ≤ b := EReal.coe_le_coe_iff.mp h
      simp only [Ideal.sqrt_coe]
      split_ifs with ha hb
      · exact le_rfl
      · exact bot_le
      · exfalso; linarith
      · exact EReal.coe_le_coe_iff.mpr (Real.sqrt_le_sqrt hab)

theorem clampSqrt_mono : Monotone clampSqrt :=
  fun _ _ h => sqrt_mono (max_le_max h le_rfl)

theorem clampSqrt_top : clampSqrt ⊤ = ⊤ := by
  unfold clampSqrt
  rw [max_eq_left le_top, Ideal.sqrt_top]

/-- A monotone map that fixes `⊤` commutes with the minimum of a finite family. -/
theorem clampSqrt_fold_min {ι : Type} (s : Finset ι) (f : ι → EReal) :
    clampSqrt (s.fold min ⊤ f) = s.fold min ⊤ (fun i => clampSqrt (f i)) := by
  classical
  induction s using Finset.induction_on with
  | empty => simp [clampSqrt_top]
  | insert a s ha ih =>
    rw [Finset.fold_insert ha, Finset.fold_insert ha, clampSqrt_mono.map_min, ih]

/-! ## A minimum through its universal property -/

/-- Below the minimum of a family is below every member. -/
theorem le_fold_min_univ {ι : Type} [Fintype ι] (f : ι → EReal) (c : EReal) :
    c ≤ (Finset.univ : Finset ι).fold min ⊤ f ↔ ∀ i, c ≤ f i := by
  rw [Finset.le_fold_min]
  exact ⟨fun h i => h.2 i (Finset.mem_univ i), fun h => ⟨le_top, fun i _ => h i⟩⟩

/-- Two extended reals with the same lower bounds are equal. -/
theorem eq_of_le_iff {u v : EReal} (h : ∀ c, c ≤ u ↔ c ≤ v) : u = v :=
  le_antisymm ((h u).mp le_rfl) ((h v).mpr le_rfl)

/-- ONE STEP of the running minimum.  `S` bounds the first `n` stretches of 2048 indices from below, exactly;
    `T` does so for stretch `n`; then `min S T` does for the first `n + 1` stretches. -/
theorem le_min_stretch (f : Fin 8192 → EReal) (n : ℕ) (hn : n < 4) (S T : EReal)
    (hS : ∀ c, c ≤ S ↔ ∀ q : Fin 8192, q.val < 2048 * n → c ≤ f q)
    (hT : ∀ c, c ≤ T ↔ ∀ j : Fin 2048, c ≤ f ⟨2048 * n + j.val, by have := j.isLt; omega⟩) (c : EReal) :
    c ≤ min S T ↔ ∀ q : Fin 8192, q.val < 2048 * (n + 1) → c ≤ f q := by
  rw [le_min_iff, hS, hT]
  constructor
  · rintro ⟨h1, h2⟩ q hq
    by_cases hlt : q.val < 2048 * n
    · exact h1 q hlt
    · have hj : q.val - 2048 * n < 2048 := by omega
      have := h2 ⟨q.val - 2048 * n, hj⟩
      have e : (⟨2048 * n + (q.val - 2048 * n), by omega⟩ : Fin 8192) = q := Fin.ext (by show 2048 * n + (q.val - 2048 * n) = q.val; omega)
      rw [e] at this
      exact this
  · intro h
    exact ⟨fun q hq => h q (by omega), fun j => h _ (by show 2048 * n + j.val < 2048 * (n + 1); have := j.isLt; omega)⟩

/-- Nothing bounds the empty stretch: `⊤` is the running minimum before the first stretch. -/
theorem le_top_stretch (f : Fin 8192 → EReal) (c : EReal) :
    c ≤ (⊤ : EReal) ↔ ∀ q : Fin 8192, q.val < 2048 * 0 → c ≤ f q :=
  ⟨fun _ q hq => absurd hq (by omega), fun _ => le_top⟩

/-- After the fourth stretch the running minimum is the minimum over all 8192 indices. -/
theorem eq_fold_of_stretches (f : Fin 8192 → EReal) (S : EReal)
    (hS : ∀ c, c ≤ S ↔ ∀ q : Fin 8192, q.val < 2048 * (3 + 1) → c ≤ f q) :
    S = (Finset.univ : Finset (Fin 8192)).fold min ⊤ f :=
  eq_of_le_iff fun c => by
    rw [hS, le_fold_min_univ]
    exact ⟨fun h q => h q (by have := q.isLt; omega), fun h q _ => h q⟩

end Cert.NearestColor

end
-- ==== Proof.RefSide.lean ====
/-
  The reference program, read at one point of the first cloud.

  Before its final mean the reference holds, for batch `b` and point `p`, the minimum over the 8192 points `q` of
  the second cloud of `√(max (|x_p|² + |y_q|² - 2⟨x_p, y_q⟩) 0)`, taken from `+∞`.  The clamp-and-root is monotone,
  so this is the clamp-and-root of the least squared distance: the specification's `nearest`.
-/
import proofs.«154996_j4097398800462_2_alg».proof.Proof.Gen.ReferenceIdeal.Read
import proofs.«154996_j4097398800462_2_alg».proof.Proof.Spec
import Idealize.ShloMosaic.Lib.ValueIdx
import Idealize.ShloMosaic.PureOps.Ideal.Laws

noncomputable section

namespace Cert.NearestColor.Ref

open Cert.ReferenceIdeal Cert.ReferenceIdeal.Gen Cert.ReferenceIdeal.Read Cert.NearestColor
open Idealize.ShloMosaic Idealize.ShloMosaic.ValueIdx

/-- Index `(b, p)` of the minima with coordinate `q` put back on the reduced axis is `(b, p, q)`. -/
theorem lift_eq (h : S4x8192x8192.Reduces [2] S4x8192) (b : Fin 4) (p q : Fin 8192) :
    h.lift (ix2 b p) q = ix3 b p q :=
  funext fun a => Fin.ext (by match a with | ⟨0, _⟩ => rfl | ⟨1, _⟩ => rfl | ⟨2, _⟩ => rfl)

/-- Where the row sum of `x ⊙ x`, broadcast along `q`, reads `x`. -/
theorem idx_sq0 (b : Fin 4) (p q : Fin 8192) (k : Fin 3) :
    idx_main_v1 (idx_main_v5 (idx_main_v7 (ix3 b p q))) k = ix3 b p k :=
  funext fun a => Fin.ext (by match a with | ⟨0, _⟩ => rfl | ⟨1, _⟩ => rfl | ⟨2, _⟩ => rfl)

/-- Where the row sum of `y ⊙ y`, broadcast along `p`, reads `y`. -/
theorem idx_sq1 (b : Fin 4) (p q : Fin 8192) (k : Fin 3) :
    idx_main_v3 (idx_main_v6 (idx_main_v8 (ix3 b p q))) k = ix3 b q k :=
  funext fun a => Fin.ext (by match a with | ⟨0, _⟩ => rfl | ⟨1, _⟩ => rfl | ⟨2, _⟩ => rfl)

/-- Where the batched product reads its left and right operands. -/
theorem idx_dotl (b : Fin 4) (p q : Fin 8192) (k : Fin 3) : lidx_main_v4 (ix3 b p q) k = ix3 b p k :=
  funext fun a => Fin.ext (by match a with | ⟨0, _⟩ => rfl | ⟨1, _⟩ => rfl | ⟨2, _⟩ => rfl)
theorem idx_dotr (b : Fin 4) (p q : Fin 8192) (k : Fin 3) : ridx_main_v4 (ix3 b p q) k = ix3 b q k :=
  funext fun a => Fin.ext (by match a with | ⟨0, _⟩ => rfl | ⟨1, _⟩ => rfl | ⟨2, _⟩ => rfl)

/-- The clamped root of the expanded squared distance, entry `(b, p, q)` of the reference's distance matrix. -/
theorem dist_apply (x y : Cloud) (b : Fin 4) (p q : Fin 8192) :
    val_main_v15 (F := Ideal) x y (ix3 b p q) = clampSqrt (sqDist x y b p q) := by
  rw [val_main_v15_apply, val_main_v14_apply, val_main_v12_apply, val_main_v13_apply, val_main_cst_2_apply,
    val_main_v9_apply, val_main_v11_apply, val_main_v10_apply, val_main_cst_1_apply, val_main_v4_apply,
    val_main_v7_apply, val_main_v8_apply, val_main_v5_apply, val_main_v6_apply, val_main_v1_apply, val_main_v3_apply]
  simp only [val_main_v0_apply, val_main_v2_apply, val_main_cst_apply, val_main_cst_0_apply, idx_sq0, idx_sq1, idx_dotl,
    idx_dotr, Ideal.hostUnary_sqrt_def, Ideal.maximumf_def, Ideal.subf_def, Ideal.addf_def, Ideal.mulf_def,
    Ideal.ofBits_def, Ideal.ofBits_zero_f32, zero_add, clampSqrt, sqDist, sqNorm, inner, two]

/-- The reference's row minimum at `(b, p)` is the distance to the nearest neighbour. -/
theorem rowMin_apply (x y : Cloud) (b : Fin 4) (p : Fin 8192) :
    val_main_v16 (F := Ideal) x y (ix2 b p) = nearest x y b p := by
  have h : S4x8192x8192.Reduces [2] S4x8192 := by decide
  unfold val_main_v16
  refine (Host.reduce_eq_fold_single FloatOps.minimumf _ _ reducesTo_S4x8192x8192_S4x8192_d2 h h_S_ (ix2 b p)).trans ?_
  unfold nearest nearestSq
  rw [clampSqrt_fold_min, ← inf_f32]
  exact Finset.fold_congr fun q _ =>
    (congrArg (val_main_v15 (F := Ideal) x y) (lift_eq h b p q)).trans (dist_apply x y b p q)

end Cert.NearestColor.Ref

end
-- ==== Proof.Pieces.lean ====
/-
  What one run of the body leaves behind, as values of the body's loads.

  The body has three shapes of run.  At the FIRST tile of a row block it resets the running minimum to `+∞`, then
  lowers it by the tile; in BETWEEN it lowers the running minimum it finds; at the LAST tile it lowers it and then
  writes out the clamped square root of what it has just stored.  Each statement below says what the running
  minimum (and, at the last tile, the output block) holds after the run, as the body's arithmetic applied to the two
  input blocks and the running minimum found.  They hold at any reading of the float operations.
-/
import proofs.«154996_j4097398800462_2_alg».proof.Proof.Gen.KernelIdeal.Frame
import Idealize.ShloMosaic.Lib.Pipeline.Value
import Idealize.ShloMosaic.Lib.Tactic

noncomputable section

namespace Cert.NearestColor.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the running minimum ends at the reset value lowered by the tile. -/
theorem first_carry (c : Dev nD) (i : grid0.Coords) (arg3 : Memref sig .tc .vmem S1x1024x3 .f32) (harg3 : arg3.IsWhole) (arg4 : Memref sig .tc .vmem S1x2048x3 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i)
    (x0 : Vec F S1x1024x3 .f32) (x1 : Vec F S1x2048x3 .f32) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1) hz2, View.readCov_unit_zero (S := S1024x1) _ hz2]
  simp only [View.readAt_eq_ld, harg3.read_unread, harg4.read_unread, harg6.read_unread, View.ld_unit_zero (S := S1x1024x3) hz3,
    View.ld_unit_zero (S := S1x2048x3) hz3, View.ld_unit_zero (S := S1024x1) hz2]

/-- A tile in between: the running minimum found, lowered by the tile. -/
theorem middle_carry (c : Dev nD) (i : grid0.Coords) (arg3 : Memref sig .tc .vmem S1x1024x3 .f32) (harg3 : arg3.IsWhole) (arg4 : Memref sig .tc .vmem S1x2048x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i)
    (x0 : Vec F S1x1024x3 .f32) (x1 : Vec F S1x2048x3 .f32) (xs0 : Vec F S1024x1 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1) hz2]
  simp only [View.readAt_eq_ld, harg3.read_unread, harg4.read_unread, harg6.read_unread, View.ld_unit_zero (S := S1x1024x3) hz3,
    View.ld_unit_zero (S := S1x2048x3) hz3, View.ld_unit_zero (S := S1024x1) hz2]

/-- Last tile: the running minimum found, lowered by the tile … -/
theorem last_carry (c : Dev nD) (i : grid0.Coords) (arg3 : Memref sig .tc .vmem S1x1024x3 .f32) (harg3 : arg3.IsWhole) (arg4 : Memref sig .tc .vmem S1x2048x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 : Vec F S1x1024x3 .f32) (x1 : Vec F S1x2048x3 .f32) (xs0 : Vec F S1024x1 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1) hz2]
  simp only [View.readAt_eq_ld, harg3.read_unread, harg4.read_unread, harg6.read_unread, View.ld_unit_zero (S := S1x1024x3) hz3,
    View.ld_unit_zero (S := S1x2048x3) hz3, View.ld_unit_zero (S := S1024x1) hz2]

/-- … and the output block: the clamped square root of that lowered minimum. -/
theorem last_out (c : Dev nD) (i : grid0.Coords) (arg3 : Memref sig .tc .vmem S1x1024x3 .f32) (harg3 : arg3.IsWhole) (arg4 : Memref sig .tc .vmem S1x2048x3 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i)
    (x0 : Vec F S1x1024x3 .f32) (x1 : Vec F S1x2048x3 .f32) (xs0 : Vec F S1024x1 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1x1024x1) hz3, View.readCov_unit_zero (S := S1024x1) _ hz2]
  simp only [View.readAt_eq_ld, harg3.read_unread, harg4.read_unread, harg6.read_unread, View.ld_unit_zero (S := S1x1024x3) hz3,
    View.ld_unit_zero (S := S1x2048x3) hz3, View.ld_unit_zero (S := S1024x1) hz2]

end Cert.NearestColor.Pieces

end
-- ==== Proof.Tile.lean ====
/-
  One tile of the distance matrix, as the kernel's body computes it.

  A grid point holds a block `a` of 1024 points of the first cloud and a block `g` of 2048 points of the second.
  The body forms the 1024 × 2048 tile of expanded squared distances `|a_r|² + |g_j|² - 2⟨a_r, g_j⟩`, takes each
  row's minimum over `j`, and lowers the running minimum it carries (one value per row `r`) by it.  At the last
  tile of a row block it clamps the running minimum at zero and takes the square root.
-/
import proofs.«154996_j4097398800462_2_alg».proof.Proof.Gen.KernelIdeal.Skeleton
import proofs.«154996_j4097398800462_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.NearestColor.Tile

open Cert.KernelIdeal Cert.KernelIdeal.Gen Cert.NearestColor
open Idealize.ShloMosaic Idealize.ShloMosaic.ValueIdx

/-! ## Two layout readings: a column made of a vector, and a column spread over the lanes -/

section Layout
variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The reductions of the body, each at one index -/

/-- A row's sum of squares: the lane sum of `w ⊙ w` over the three coordinates. -/
theorem rowSq_apply {n : ℕ} (w : FVec Ideal ⟨2, ![n, 3]⟩ .f32) (h : (⟨2, ![n, 3]⟩ : Shape).Reduces [1] ⟨1, ![n]⟩) (r : Fin n) :
    multiReduction .add [1] ⟨1, ![n]⟩ (mulf w w) 0x00000000#32 h (.inl rfl) rfl (ix1 r) = ∑ k : Fin 3, w (ix2 r k) * w (ix2 r k) := by
  refine (Ideal.multiReduction_add_single (mulf w w) 0x00000000#32 h (.inl rfl) rfl (ix1 r)).trans ?_
  refine Finset.sum_congr rfl fun k _ => ?_
  have e : h.lift (ix1 r) k = ix2 r k := funext fun a => Fin.ext (by match a with | ⟨0, _⟩ => rfl | ⟨1, _⟩ => rfl)
  rw [e]; rfl

/-- A row's minimum over the 2048 lanes, from `+∞`. -/
theorem rowMin_apply (W : FVec Ideal S1024x2048 .f32) (r : Fin 1024) :
    multiReduction .minimumf [1] S1024 W 0x7F800000#32 reduces_S1024x2048_S1024 (.inl rfl) rfl (ix1 r)
      = (Finset.univ : Finset (Fin 2048)).fold min ⊤ (fun j => W (ix2 r j)) := by
  refine (multiReduction_minimumf_eq_fold W _ reduces_S1024x2048_S1024 (.inl rfl) rfl (ix1 r)).trans ?_
  refine (reduces_S1024x2048_S1024.fold_filter_drop_single _ _ W (ix1 r)).trans ?_
  rw [← inf_f32]
  exact Finset.fold_congr fun j _ => congrArg W (funext fun a => Fin.ext (by match a with | ⟨0, _⟩ => rfl | ⟨1, _⟩ => rfl))

/-! ## The tile of inner products -/

/-- The body's product: rows of the first block against rows of the second, contracted over the three coordinates. -/
abbrev tileDims : DotDims S1024x3 S2048x3 S1024x2048 := dot_S1024x3_S2048x3_S1024x2048_1_1_0_0_n_n

theorem lhs_row (i : S1024x2048.Idx) (q : tileDims.contr.Idx) : (tileDims.lhsIdx i q 0).val = (i 0).val := by
  unfold DotDims.lhsIdx
  rw [dif_neg (show ¬(0 : Fin S1024x3.rank) ∈ tileDims.lhsBatch by decide),
    dif_pos (show (0 : Fin S1024x3.rank) ∈ tileDims.lhsNonContracting by decide)]
  rfl
theorem lhs_coord (i : S1024x2048.Idx) (q : tileDims.contr.Idx) : (tileDims.lhsIdx i q 1).val = (q ⟨0, by decide⟩).val :=
  tileDims.lhsIdx_val_of_single rfl i q
theorem rhs_row (i : S1024x2048.Idx) (q : tileDims.contr.Idx) : (tileDims.rhsIdx i q 0).val = (i 1).val := by
  unfold DotDims.rhsIdx
  rw [dif_neg (show ¬(0 : Fin S2048x3.rank) ∈ tileDims.rhsBatch by decide),
    dif_pos (show (0 : Fin S2048x3.rank) ∈ tileDims.rhsNonContracting by decide)]
  rfl
theorem rhs_coord (i : S1024x2048.Idx) (q : tileDims.contr.Idx) : (tileDims.rhsIdx i q 1).val = (q ⟨0, by decide⟩).val :=
  tileDims.rhsIdx_val_of_single rfl i q

/-- Entry `(r, j)` of the product into a zero accumulator is the inner product of row `r` and row `j`. -/
theorem tileDot_apply (w : FVec Ideal S1024x3 .f32) (z : FVec Ideal S2048x3 .f32) (r : Fin 1024) (j : Fin 2048) :
    matmul tileDims (some .fp32) w z (constant S1024x2048 .f32 0x00000000#32) (ix2 r j)
      = ∑ k : Fin 3, w (ix2 r k) * z (ix2 j k) := by
  simp only [matmul]
  rw [Ideal.matmul_constant_zero_apply, ← Equiv.sum_comp (contrEquiv1 tileDims 3 rfl rfl).symm]
  refine Finset.sum_congr rfl fun k _ => ?_
  have hk := contrEquiv1_symm_val tileDims 3 rfl rfl k
  have el : tileDims.lhsIdx (ix2 r j) ((contrEquiv1 tileDims 3 rfl rfl).symm k) = ix2 r k := funext fun a => Fin.ext (by
    match a with
    | ⟨0, _⟩ => exact lhs_row _ _
    | ⟨1, _⟩ => exact (lhs_coord _ _).trans hk)
  have er : tileDims.rhsIdx (ix2 r j) ((contrEquiv1 tileDims 3 rfl rfl).symm k) = ix2 j k := funext fun a => Fin.ext (by
    match a with
    | ⟨0, _⟩ => exact rhs_row _ _
    | ⟨1, _⟩ => exact (rhs_coord _ _).trans hk)
  rw [el, er]

/-! ## The three stored values of the body -/

/-- The expanded squared distance between row `r` of block `a` and row `j` of block `g`. -/
def tileDist (a : FVec Ideal S1x1024x3 .f32) (g : FVec Ideal S1x2048x3 .f32) (r : Fin 1024) (j : Fin 2048) : EReal :=
  ((∑ k : Fin 3, a (ix3 0 r k) * a (ix3 0 r k)) + ∑ k : Fin 3, g (ix3 0 j k) * g (ix3 0 j k))
    - two * ∑ k : Fin 3, a (ix3 0 r k) * g (ix3 0 j k)

/-- When the two blocks' rows are rows `p` and `q` of batch `b` of two clouds, the tile's entry is the clouds' squared
    distance. -/
theorem tileDist_of_rows (a : FVec Ideal S1x1024x3 .f32) (g : FVec Ideal S1x2048x3 .f32) (x y : Cloud) (r : Fin 1024)
    (j : Fin 2048) (b : Fin 4) (p q : Fin 8192) (ha : ∀ k : Fin 3, a (ix3 0 r k) = x (ix3 b p k))
    (hg : ∀ k : Fin 3, g (ix3 0 j k) = y (ix3 b q k)) : tileDist a g r j = sqDist x y b p q := by
  unfold tileDist sqDist sqNorm inner
  simp only [ha, hg]

/-- The reset value of the running minimum is `+∞` in every row. -/
theorem reset_apply (r : Fin 1024) (u : Fin 1) : k0_pay1 (F := Ideal) (ix2 r u) = ⊤ := by
  unfold k0_pay1
  rw [shapeCast_self]
  exact inf_f32

/-- The running minimum after a tile: row `r` is lowered by the least squared distance of the tile's row `r`. -/
theorem lowered_apply (a : FVec Ideal S1x1024x3 .f32) (g : FVec Ideal S1x2048x3 .f32) (s : FVec Ideal S1024x1 .f32)
    (r : Fin 1024) (u : Fin 1) :
    k0_pay2 (F := Ideal) a g s (ix2 r u)
      = min (s (ix2 r u)) ((Finset.univ : Finset (Fin 2048)).fold min ⊤ fun j => tileDist a g r j) := by
  unfold k0_pay2
  rw [shapeCast_self, minimumf_apply, shapeCast_a_a1_apply, rowMin_apply]
  refine congrArg (min _) (Finset.fold_congr fun j _ => ?_)
  rw [subf_apply, addf_apply, mulf_apply, broadcastTo_a1_ab_apply, shapeCast_a_a1_apply, rowSq_apply,
    broadcastTo_1b_ab_apply, shapeCast_a_1a_apply, rowSq_apply, broadcast_apply, tileDot_apply]
  simp only [shapeCast_1ab_ab_apply]
  rfl

/-- The value written out at the last tile: the running minimum clamped at zero, then its square root. -/
theorem root_apply (s : FVec Ideal S1024x1 .f32) (u0 : Fin 1) (r : Fin 1024) (u : Fin 1) :
    k0_pay3 (F := Ideal) s (ix3 u0 r u) = clampSqrt (s (ix2 r u)) := by
  unfold k0_pay3
  rw [shapeCast_ab_1ab_apply]
  rfl

end Cert.NearestColor.Tile

end
-- ==== Proof.Blocks.lean ====
/-
  Which rows of the clouds a grid point holds.

  The grid is 4 × 8 × 4: batch `b`, row block `i` of the first cloud (1024 points each), tile `n` of the second cloud
  (2048 points each); point number `t = 32·b + 4·i + n`.  At point `t` the first window holds rows
  `1024·i … 1024·i + 1023` of batch `b` of the first cloud, the second window rows `2048·n … 2048·n + 2047` of batch
  `b` of the second, and the output window rows `1024·i …` of batch `b` of the result.
-/
import proofs.«154996_j4097398800462_2_alg».proof.Proof.Gen.KernelIdeal.Frame
import Idealize.ShloMosaic.Lib.Pipeline.Value
import Idealize.ShloMosaic.Lib.ValueIdx

noncomputable section

namespace Cert.NearestColor.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

theorem lt128 (t : Fin cfg0.N) : t.val < 128 := lt_of_lt_of_eq t.isLt (show cfg0.N = 128 from N_0)

/-- The batch of point `t`. -/
def batchOf (t : Fin cfg0.N) : Fin 4 := ⟨t.val / 32, by have := lt128 t; omega⟩
/-- Row `r` of point `t`'s block of the first cloud, as a row of the cloud. -/
def rowOf (t : Fin cfg0.N) (r : Fin 1024) : Fin 8192 := ⟨1024 * (t.val / 4 % 8) + r.val, by have := r.isLt; omega⟩
/-- Row `j` of point `t`'s block of the second cloud, as a row of the cloud. -/
def colOf (t : Fin cfg0.N) (j : Fin 2048) : Fin 8192 := ⟨2048 * (t.val % 4) + j.val, by have := j.isLt; omega⟩

/-- The three windows' block indices at every grid point, decided over the 128 points. -/
theorem idx_first : ∀ t : Fin cfg0.N, win0_0.index t (0 : Fin 3) = t.val / 32 ∧ win0_0.index t (1 : Fin 3) = t.val / 4 % 8
    ∧ win0_0.index t (2 : Fin 3) = 0 :=
  (by decide +kernel : ∀ t : Fin grid0.N, _)
theorem idx_second : ∀ t : Fin cfg0.N, win0_1.index t (0 : Fin 3) = t.val / 32 ∧ win0_1.index t (1 : Fin 3) = t.val % 4
    ∧ win0_1.index t (2 : Fin 3) = 0 :=
  (by decide +kernel : ∀ t : Fin grid0.N, _)
theorem idx_out : ∀ t : Fin cfg0.N, win0_2.index t (0 : Fin 3) = t.val / 32 ∧ win0_2.index t (1 : Fin 3) = t.val / 4 % 8
    ∧ win0_2.index t (2 : Fin 3) = 0 :=
  (by decide +kernel : ∀ t : Fin grid0.N, _)

/-- Entry `(·, r, k)` of the first window's block at `t` is entry `(b, 1024·i + r, k)` of the first cloud. -/
theorem first_apply (c : Dev nD) (t : Fin cfg0.N) (u : Fin 1) (r : Fin 1024) (k : Fin 3) :
    (iblk m c 0 t : Vec F S1x1024x3 .f32) (ix3 u r k) = V m c main_arg0 (ix3 (batchOf t) (rowOf t r) k) := by
  obtain ⟨e0, e1, e2⟩ := idx_first t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * u.val = t.val / 32; rw [e0]; omega
  | ⟨1, _⟩ => show win0_0.index t (1 : Fin 3) * 1024 + 1 * r.val = 1024 * (t.val / 4 % 8) + r.val; rw [e1]; omega
  | ⟨2, _⟩ => show win0_0.index t (2 : Fin 3) * 3 + 1 * k.val = k.val; rw [e2]; omega

/-- Entry `(·, j, k)` of the second window's block at `t` is entry `(b, 2048·n + j, k)` of the second cloud. -/
theorem second_apply (c : Dev nD) (t : Fin cfg0.N) (u : Fin 1) (j : Fin 2048) (k : Fin 3) :
    (iblk m c 1 t : Vec F S1x2048x3 .f32) (ix3 u j k) = V m c main_arg1 (ix3 (batchOf t) (colOf t j) k) := by
  obtain ⟨e0, e1, e2⟩ := idx_second t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * u.val = t.val / 32; rw [e0]; omega
  | ⟨1, _⟩ => show win0_1.index t (1 : Fin 3) * 2048 + 1 * j.val = 2048 * (t.val % 4) + j.val; rw [e1]; omega
  | ⟨2, _⟩ => show win0_1.index t (2 : Fin 3) * 3 + 1 * k.val = k.val; rw [e2]; omega

end Cert.NearestColor.Blocks

end
-- ==== Proof.Carry.lean ====
/-
  The running minimum across the grid.

  Fix a batch `b` and a row block `i` of the first cloud.  The four grid points `(b, i, 0) … (b, i, 3)` visit the
  four tiles of the second cloud in order and carry one number per row `r` of the block.  After tile `n` that number
  is the greatest lower bound of the squared distances from the row's point to the first `2048·(n + 1)` points of the
  second cloud: a statement about bounds, proved by induction on the point.  After tile 3 it is therefore the least
  squared distance to the whole second cloud, and what the last point writes out is the distance to the nearest
  neighbour.
-/
import proofs.«154996_j4097398800462_2_alg».proof.Proof.Pieces
import proofs.«154996_j4097398800462_2_alg».proof.Proof.Tile
import proofs.«154996_j4097398800462_2_alg».proof.Proof.Blocks

noncomputable section

namespace Cert.NearestColor.Carry

open Cert.KernelIdeal Cert.KernelIdeal.Gen Cert.NearestColor Cert.NearestColor.Blocks Cert.NearestColor.Tile
  Cert.NearestColor.Pieces
open Idealize.ShloMosaic Idealize.ShloMosaic.TcCoe Idealize.SL.Sem Idealize.ShloMosaic.ValueIdx

variable (m : (ℓ : Loc nD τ sig) → Buf (Elt Ideal) ℓ)

/-- The two clouds, as the region finds them. -/
abbrev cloudX (c : Dev nD) : Cloud := V m c main_arg0
abbrev cloudY (c : Dev nD) : Cloud := V m c main_arg1

/-- The squared distances from row `r` of point `t`'s block of the first cloud to every point of the second. -/
def distsAt (c : Dev nD) (t : Fin cfg0.N) (r : Fin 1024) (q : Fin 8192) : EReal :=
  sqDist (cloudX m c) (cloudY m c) (batchOf t) (rowOf t r) q

/-- The tile at point `t` holds the squared distances to the points `2048·n + j` of the second cloud. -/
theorem tile_eq (c : Dev nD) (t : Fin cfg0.N) (r : Fin 1024) (j : Fin 2048) :
    tileDist (iblk m c 0 t) (iblk m c 1 t) r j = distsAt m c t r (colOf t j) :=
  tileDist_of_rows _ _ (cloudX m c) (cloudY m c) r j (batchOf t) (rowOf t r) (colOf t j)
    (fun k => first_apply m c t 0 r k) (fun k => second_apply m c t 0 j k)

/-- ONE TILE: a running minimum that bounds the first `n` stretches exactly, lowered by tile `n`, bounds the first
    `n + 1` stretches exactly. -/
theorem lowered_spec (c : Dev nD) (t : Fin cfg0.N) (s : FVec Ideal S1024x1 .f32) (r : Fin 1024) (u : Fin 1)
    (hs : ∀ z, z ≤ s (ix2 r u) ↔ ∀ q : Fin 8192, q.val < 2048 * (t.val % 4) → z ≤ distsAt m c t r q) (z : EReal) :
    z ≤ k0_pay2 (F := Ideal) (iblk m c 0 t) (iblk m c 1 t) s (ix2 r u)
      ↔ ∀ q : Fin 8192, q.val < 2048 * (t.val % 4 + 1) → z ≤ distsAt m c t r q := by
  have e := lowered_apply (iblk m c 0 t) (iblk m c 1 t) s r u
  rw [e]
  refine le_min_stretch (distsAt m c t r) (t.val % 4) (by omega) _ _ hs (fun z' => ?_) z
  rw [le_fold_min_univ]
  refine forall_congr' fun j => ?_
  rw [tile_eq]
  rfl

/-- THE INVARIANT: after point `n` the carried number of row `r` bounds exactly the squared distances to the first
    `2048·(n mod 4 + 1)` points of the second cloud. -/
theorem carry_spec (c : Dev nD) : ∀ (n : ℕ) (hn : n < cfg0.N) (r : Fin 1024) (u : Fin 1) (z : EReal),
    z ≤ (outsAt0 m c n hn).2 (ix2 r u) ↔ ∀ q : Fin 8192, q.val < 2048 * (n % 4 + 1) → z ≤ distsAt m c ⟨n, hn⟩ r q
  | 0, hn, r, u, z => by
    rw [outsAt0_A m c ⟨0, hn⟩ rfl (by show ¬(0 % 4 = 3); omega)]
    dsimp only
    rw [first_carry]
    refine lowered_spec m c ⟨0, hn⟩ _ r u (fun z' => ?_) z
    rw [reset_apply]
    exact le_top_stretch _ z'
  | n + 1, hn, r, u, z => by
    have hN := lt128 ⟨n + 1, hn⟩
    by_cases h0 : (n + 1) % 4 = 0
    · have h1 : ¬(n + 1) % 4 = 3 := by omega
      rw [outsAt0_A m c ⟨n + 1, hn⟩ h0 h1]
      dsimp only
      rw [first_carry]
      refine lowered_spec m c ⟨n + 1, hn⟩ _ r u (fun z' => ?_) z
      rw [reset_apply]
      show z' ≤ ⊤ ↔ ∀ q : Fin 8192, q.val < 2048 * ((n + 1) % 4) → _
      rw [h0]
      exact le_top_stretch _ z'
    · have ih := carry_spec c n (Nat.lt_of_succ_lt hn) r u
      have hprev : ∀ z', z' ≤ (outsAt0 m c n (Nat.lt_of_succ_lt hn)).2 (ix2 r u)
          ↔ ∀ q : Fin 8192, q.val < 2048 * ((n + 1) % 4) → z' ≤ distsAt m c ⟨n + 1, hn⟩ r q := by
        intro z'
        rw [ih z']
        have e1 : n % 4 + 1 = (n + 1) % 4 := by omega
        have e2 : distsAt m c ⟨n, Nat.lt_of_succ_lt hn⟩ r = distsAt m c ⟨n + 1, hn⟩ r := by
          funext q
          unfold distsAt
          have eb : batchOf ⟨n, Nat.lt_of_succ_lt hn⟩ = batchOf ⟨n + 1, hn⟩ :=
            Fin.ext (by show n / 32 = (n + 1) / 32; omega)
          have er : rowOf ⟨n, Nat.lt_of_succ_lt hn⟩ r = rowOf ⟨n + 1, hn⟩ r :=
            Fin.ext (by show 1024 * (n / 4 % 8) + r.val = 1024 * ((n + 1) / 4 % 8) + r.val; omega)
          rw [eb, er]
        rw [e1, e2]
      by_cases h1 : (n + 1) % 4 = 3
      · rw [outsAt0_C m c ⟨n + 1, hn⟩ h0 h1]
        dsimp only
        rw [last_carry]
        exact lowered_spec m c ⟨n + 1, hn⟩ _ r u hprev z
      · rw [outsAt0_B m c ⟨n + 1, hn⟩ h0 h1]
        dsimp only
        rw [middle_carry]
        exact lowered_spec m c ⟨n + 1, hn⟩ _ r u hprev z

/-- THE OUTPUT BLOCK of a last point: row `r` holds the distance from the row's point to its nearest neighbour. -/
theorem out_apply (c : Dev nD) (t : Fin cfg0.N) (h1 : t.val % 4 = 3) (u0 : Fin 1) (r : Fin 1024) (u : Fin 1) :
    (outsAt0 m c t.val t.isLt).1 (ix3 u0 r u) = nearest (cloudX m c) (cloudY m c) (batchOf t) (rowOf t r) := by
  have h0 : ¬t.val % 4 = 0 := by omega
  have hc := carry_spec m c t.val t.isLt r u
  rw [outsAt0_C m c t h0 h1] at hc ⊢
  dsimp only at hc ⊢
  rw [last_out, root_apply]
  rw [last_carry] at hc
  unfold nearest nearestSq
  refine congrArg clampSqrt (eq_fold_of_stretches (distsAt m c t r) _ fun z => ?_)
  rw [hc z, h1]

end Cert.NearestColor.Carry

end
-- ==== Proof.Mean.lean ====
/-
  The mean both programs end with: the 4 · 8192 distances summed from zero, the sum divided by 32768 and the
  quotient multiplied by one — the same three operations on the same binary32 words in both programs, so it is
  carried as one function of the array of distances and never opened.
-/
import Idealize.ShloMosaic.PureOps
import Idealize.ShloMosaic.PureOps.Ideal

noncomputable section

namespace Cert.NearestColor

open Idealize.ShloMosaic

/-- The mean of a 4 × 8192 array of extended reals, as the host computes it. -/
def meanOf (h : (⟨2, ![4, 8192]⟩ : Shape).ReducesTo [0, 1] ⟨0, ![]⟩) (h0 : 0 < (⟨0, ![]⟩ : Shape).numel)
    (d : FVec Ideal ⟨2, ![4, 8192]⟩ .f32) : FVec Ideal ⟨0, ![]⟩ .f32 :=
  mulf (Host.divf (F := Ideal) (Host.reduceAdd (F := Ideal) d (constant (F := Ideal) ⟨0, ![]⟩ .f32 0x00000000#32) h h0)
    (constant (F := Ideal) ⟨0, ![]⟩ .f32 0x47000000#32)) (constant (F := Ideal) ⟨0, ![]⟩ .f32 0x3F800000#32)

end Cert.NearestColor

end
-- ==== Proof.Final.lean ====
/-
  The kernel's result, read off its run.

  The output window is written back at the last tile of each row block, and those 32 blocks of 1024 rows tile the
  4 × 8192 × 1 result array; so after the region the array holds, at `(b, p, ·)`, the distance from point `p` of
  batch `b` of the first cloud to its nearest neighbour in the second.  The host lines after the region drop the unit
  axis and take the mean.
-/
import proofs.«154996_j4097398800462_2_alg».proof.Proof.Carry
import proofs.«154996_j4097398800462_2_alg».proof.Proof.Mean
import Idealize.ShloMosaic.Lib.Pipeline.Value
import Idealize.ShloMosaic.Lib.StableHlo.Run

noncomputable section

namespace Cert.NearestColor.Final

open Cert.KernelIdeal Cert.KernelIdeal.Gen Cert.NearestColor Cert.NearestColor.Blocks Cert.NearestColor.Carry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array of nearest-neighbour distances, with its trailing unit axis. -/
def nearestArr (c : Dev nD) : Buf (Elt Ideal) ((c : Thread nD τ).loc main_v0) :=
  fun i : S4x8192x1.Idx => nearest (cloudX m c) (cloudY m c) (i 0) (i 1)

/-- What a last point writes back is its block of that array. -/
theorem flushed_eq (c : Dev nD) (t : Fin cfg0.N) (hf : (cfg0.win 2).flush t = true) :
    (dats m 0 c).flushed 2 t = ((cfg0.win 2).blk t).view.read (Elt Ideal) (nearestArr m c) := by
  have h1 : t.val % 4 = 3 := (flush0_2 t).mp hf
  obtain ⟨e0, e1, e2⟩ := idx_out t
  show (cfg0.win 2).cut (grid0.coords t) ((dats m 0 c).after 2 t) = _
  rw [after0_2]
  refine funext fun (y : S1x1024x1.Idx) => ?_
  obtain ⟨u0, r, u, rfl⟩ : ∃ (u0 : Fin 1) (r : Fin 1024) (u : Fin 1), y = ix3 u0 r u := ⟨y 0, y 1, y 2, eq_ix3 y⟩
  rw [View.read_apply]
  show (outsAt0 m c t.val t.isLt).1 (ix3 u0 r u)
    = nearest (cloudX m c) (cloudY m c) ((((cfg0.win 2).blk t).view.emb (ix3 u0 r u)) 0) ((((cfg0.win 2).blk t).view.emb (ix3 u0 r u)) 1)
  have eb : (((cfg0.win 2).blk t).view.emb (ix3 u0 r u)) 0 = batchOf t :=
    Fin.ext (by show win0_2.index t (0 : Fin 3) * 1 + 1 * u0.val = t.val / 32; rw [e0]; omega)
  have er : (((cfg0.win 2).blk t).view.emb (ix3 u0 r u)) 1 = rowOf t r :=
    Fin.ext (by show win0_2.index t (1 : Fin 3) * 1024 + 1 * r.val = 1024 * (t.val / 4 % 8) + r.val; rw [e1]; omega)
  rw [eb, er]
  exact out_apply m c t h1 u0 r u

/-- Every entry of the result array lies in the block some last point writes back. -/
theorem cover (c : Dev nD) (i : S4x8192x1.Idx) :
    ∃ t : Fin cfg0.N, (cfg0.win 2).flush t = true ∧ i ∈ ((cfg0.win 2).blk t).view.set := by
  have hb : (i 0).val < 4 := (i 0).isLt
  have hp : (i 1).val < 8192 := (i 1).isLt
  have hu : (i 2).val < 1 := (i 2).isLt
  obtain ⟨tv, htv⟩ : ∃ tv : ℕ, tv = 32 * (i 0).val + 4 * ((i 1).val / 1024) + 3 := ⟨_, rfl⟩
  have hlt : tv < cfg0.N := by rw [show cfg0.N = 128 from N_0]; omega
  obtain ⟨e0, e1, e2⟩ := idx_out ⟨tv, hlt⟩
  refine ⟨⟨tv, hlt⟩, (flush0_2 _).mpr (by show tv % 4 = 3; omega), ?_⟩
  show i ∈ ((View.whole main_v0).slice (win0_2.rect ⟨tv, hlt⟩)).set
  rw [View.set_slice_whole, Rect.mem_set_unit]
  intro a
  match a with
  | ⟨0, _⟩ =>
    show win0_2.index ⟨tv, hlt⟩ (0 : Fin 3) * 1 ≤ (i 0).val ∧ (i 0).val < win0_2.index ⟨tv, hlt⟩ (0 : Fin 3) * 1 + 1
    rw [e0]; show tv / 32 * 1 ≤ (i 0).val ∧ (i 0).val < tv / 32 * 1 + 1; omega
  | ⟨1, _⟩ =>
    show win0_2.index ⟨tv, hlt⟩ (1 : Fin 3) * 1024 ≤ (i 1).val ∧ (i 1).val < win0_2.index ⟨tv, hlt⟩ (1 : Fin 3) * 1024 + 1024
    rw [e1]; show tv / 4 % 8 * 1024 ≤ (i 1).val ∧ (i 1).val < tv / 4 % 8 * 1024 + 1024; omega
  | ⟨2, _⟩ =>
    show win0_2.index ⟨tv, hlt⟩ (2 : Fin 3) * 1 ≤ (i 2).val ∧ (i 2).val < win0_2.index ⟨tv, hlt⟩ (2 : Fin 3) * 1 + 1
    rw [e2]; omega

/-- So the result array of the region ends holding the nearest-neighbour distances. -/
theorem final (c : Dev nD) : (dats m 0 c).arrAt 2 cfg0.N = nearestArr m c :=
  (dats m 0 c).arrAt_eq_of_cover 2 (nearestArr m c) (fun t hf => flushed_eq m c t hf) (cover c)

/-- The host lines after the region: the unit axis dropped, then the mean. -/
theorem tail_eq (c : Dev nD) :
    Pipeline.afterTail₀ cfgs (dats m) 0 (V0 m) [hostOps1] c main_v4
      = meanOf reducesTo_S4x8192_S_d0_1 h_S_ (shapeCast S4x8192 (nearestArr m c) shapeCasts_S4x8192x1_S4x8192) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v0)
      = nearestArr m c :=
    (Pipeline.withArrays_arr spec0 launch0.win.arr_inj c _ _ 2).trans (final m c)
  rw [e]
  rfl

/-- THE KERNEL'S RUN, READ: every weakly fair execution ends with the result at the mean of the nearest-neighbour
    distances and the two clouds unchanged. -/
theorem run : θ_run defs (onTc (τ := τ) (main (F := Ideal))) ⟨m, fun _ => 0, ρ⟩ fun r => ∀ c : Dev nD,
      r.2.mem ((c : Thread nD τ).loc main_v4)
        = meanOf reducesTo_S4x8192_S_d0_1 h_S_ (shapeCast S4x8192 (nearestArr m c) shapeCasts_S4x8192x1_S4x8192)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v4 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.NearestColor.Final

end
-- ==== Proof.lean ====
/-
  The nearest-colour loss: a tiled kernel against its plain reference.

  Both programs take two batches of point clouds `x, y : [4, 8192, 3]` and return the mean, over the 4 · 8192 points
  of `x`, of the distance from the point to its nearest neighbour in `y`, the squared distance expanded as
  `|x_p|² + |y_q|² - 2⟨x_p, y_q⟩`.

  The reference forms all 4 · 8192 · 8192 squared distances, clamps each at zero, takes its square root, and then the
  minimum over `q`.  The kernel walks a 4 × 8 × 4 grid: for each block of 1024 points of `x` it visits the four tiles
  of 2048 points of `y` in turn, keeps the running minimum of the SQUARED distances, and only at the last tile clamps
  the minimum and takes one square root per point.

  Over the extended reals the two agree for two reasons.  The clamp followed by the square root is monotone, so it
  commutes with a minimum over a finite family (`clampSqrt_fold_min`); and a minimum does not depend on the order or
  grouping in which it is taken, which is said here through lower bounds: after tile `n` the running minimum has
  exactly the lower bounds common to the first `2048·(n + 1)` squared distances (`carry_spec`), hence after the
  fourth tile it is the minimum of all 8192.  No arithmetic law with an exception at infinity is used, so the
  precondition (finite inputs) is never opened.  Both programs end with the same mean, carried as one function.

  The three frames are the generated ones (the reference's is its generated run with the result dropped), and the
  idealization rewrote nothing.
-/
import proofs.«154996_j4097398800462_2_alg».proof.Defs
import proofs.«154996_j4097398800462_2_alg».proof.Proof.Gen.Kernel
import proofs.«154996_j4097398800462_2_alg».proof.Proof.Gen.Kernel.Frame
import proofs.«154996_j4097398800462_2_alg».proof.Proof.Gen.KernelIdeal
import proofs.«154996_j4097398800462_2_alg».proof.Proof.Gen.KernelIdeal.Frame
import proofs.«154996_j4097398800462_2_alg».proof.Proof.Gen.ReferenceIdeal
import proofs.«154996_j4097398800462_2_alg».proof.Proof.Gen.ReferenceIdeal.Run
import proofs.«154996_j4097398800462_2_alg».proof.Proof.Gen.ReferenceIdeal.Read
import proofs.«154996_j4097398800462_2_alg».proof.Proof.Gen.Pre_finite_inputs
import proofs.«154996_j4097398800462_2_alg».proof.Proof.RefSide
import proofs.«154996_j4097398800462_2_alg».proof.Proof.Final
import Idealize.ShloMosaic.Adequacy
import Idealize.ShloMosaic.Init

noncomputable section

namespace Cert.Proof

open Idealize.ShloMosaic Idealize.ShloMosaic.TcCoe Idealize.SL.Sem Idealize.ShloMosaic.ValueIdx
open Cert.NearestColor

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- A `[4, 8192, 1]` array with its unit axis dropped reads, at `(b, p)`, the array at `(b, p, 0)`. -/
theorem dropUnit_apply (d : (⟨3, ![4, 8192, 1]⟩ : Shape).Idx → EReal)
    (h : (⟨3, ![4, 8192, 1]⟩ : Shape).ShapeCasts ⟨2, ![4, 8192]⟩) (b : Fin 4) (p : Fin 8192) :
    shapeCast ⟨2, ![4, 8192]⟩ d h (ix2 b p) = d (ix3 b p (0 : Fin 1)) :=
  shapeCast_apply d h _ _ (by
    rw [Shape.rowMajor_val_three, Shape.rowMajor_val_two]
    show (b.val * 8192 + p.val) * 1 + 0 = b.val * 8192 + p.val
    omega)

/-- At the ideal values the kernel ends at the mean of the nearest-neighbour distances (its run, read) and so does
    the reference (its row minima are those distances), from clouds that agree. -/
theorem algebraic : Cert.algebraic_KernelIdeal_ReferenceIdeal := by
  intro m ρ m' ρ' _ hagree
  refine ⟨_, Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  show meanOf _ _ (Cert.ReferenceIdeal.Read.val_main_v16 (F := Ideal) _ _) = meanOf _ _ _
  refine congrArg (meanOf _ _) (funext fun i => ?_)
  obtain ⟨b, p, rfl⟩ : ∃ (b : Fin 4) (p : Fin 8192), i = ix2 b p := ⟨i 0, i 1, eq_ix2 i⟩
  rw [Ref.rowMin_apply, dropUnit_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
